-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S8x2048x8192 : Shape := ⟨3, ![8, 2048, 8192]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_

variable [Facts]

def fn_part1 {F : FTy → Type} [FloatOps F] (main_v13 : IVec S_ 1) (main_v16 : IVec S8x2048x8192 1) : IVec S_ 1 :=
  let main_c_5 : IVec S_ 1 := constantI S_ 1 1#1
  let main_v17 : IVec S_ 1 := (fun x v => Host.reduce IntOp.andi x v reducesTo_S8x2048x8192_S_d0_1_2 h_S_) main_v16 main_c_5
  let main_v18 : IVec S_ 1 := andi main_v13 main_v17
  main_v18

def fn {F : FTy → Type} [FloatOps F] (main_arg0 : FVec F S8x256x2048 .f32) (main_arg1 : FVec F S8x2048x8192 .f32) (main_arg2 : FVec F S8x2048x8192 .f32) (main_arg3 : FVec F S8x2048x8192 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x2048x8192 .f32 := Host.absf main_arg2
  let main_cst_2 : FVec F S_ .f32 := constant S_ .f32 0x7F800000#32
  let main_v10 : FVec F S8x2048x8192 .f32 := broadcastInDim S8x2048x8192 ![] bcast_S_S8x2048x8192 main_cst_2
  let main_v11 : IVec S8x2048x8192 1 := cmpf .olt main_v9 main_v10
  let main_c_3 : IVec S_ 1 := constantI S_ 1 1#1
  let main_v12 : IVec S_ 1 := (fun x v => Host.reduce IntOp.andi x v reducesTo_S8x2048x8192_S_d0_1_2 h_S_) main_v11 main_c_3
  let main_v13 : IVec S_ 1 := andi main_v8 main_v12
  let main_v14 : FVec F S8x2048x8192 .f32 := Host.absf main_arg3
  let main_cst_4 : FVec F S_ .f32 := constant S_ .f32 0x7F800000#32
  let main_v15 : FVec F S8x2048x8192 .f32 := broadcastInDim S8x2048x8192 ![] bcast_S_S8x2048x8192 main_cst_4
  let main_v16 : IVec S8x2048x8192 1 := cmpf .olt main_v14 main_v15
  fn_part1 (F := F) main_v13 main_v16
-- ==== Kernel.lean ====
abbrev S8x256x2048 : Shape := ⟨3, ![8, 256, 2048]⟩
abbrev S8x2048x8192 : Shape := ⟨3, ![8, 2048, 8192]⟩
abbrev S1x256x2048 : Shape := ⟨3, ![1, 256, 2048]⟩
abbrev S1x2048x512 : Shape := ⟨3, ![1, 2048, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 5
  | .vmem => 12
  | .smem => 0
  | _ => 0

abbrev bufTy : (tb : Table) → Fin (tcTables nBuf tb) → BufTy
  | .hbm, ⟨0, _⟩ => ⟨S8x256x2048, .f32⟩
  | .hbm, ⟨1, _⟩ => ⟨S8x2048x8192, .f32⟩
  | .hbm, ⟨2, _⟩ => ⟨S8x2048x8192, .f32⟩
  | .hbm, ⟨3, _⟩ => ⟨S8x2048x8192, .f32⟩
  | .hbm, ⟨4, _⟩ => ⟨S8x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | .local _ .vmem, ⟨11, _⟩ => ⟨S256x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S256x2048_S1x256x2048 : S256x2048.ShapeCasts S1x256x2048
  dot_S256x2048_S2048x512_S256x512_1_0_0_1_n_n_wf : DotDims.WF S256x2048 S2048x512 S256x512 [1] [0] [0] [1] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .f32 = 32 ∨ (Rect.block (s := S8x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .f32 = 32 ∨ (Rect.block (s := S8x2048x8192) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x8192.size a
  hwx0_3 : ∀ i : grid0.Coords, EltTy.bits .f32 = 32 ∨ (Rect.block (s := S8x2048x8192) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x256x2048.size a
  hwx0_4 : ∀ i : grid0.Coords, EltTy.bits .f32 = 32 ∨ (Rect.block (s := S8x256x2048) S1x256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x256x2048 : Shape := ⟨3, ![8, 256, 2048]⟩
abbrev S8x2048x8192 : Shape := ⟨3, ![8, 2048, 8192]⟩
abbrev S8x256x8192 : Shape := ⟨3, ![8, 256, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x2048x8192, .f32⟩
  | .hbm, ⟨2, _⟩ => ⟨S8x2048x8192, .f32⟩
  | .hbm, ⟨3, _⟩ => ⟨S8x2048x8192, .f32⟩
  | .hbm, ⟨4, _⟩ => ⟨S8x256x8192, .f32⟩
  | .hbm, ⟨5, _⟩ => ⟨S8x256x8192, .f32⟩
  | .hbm, ⟨6, _⟩ => ⟨S8x256x8192, .f32⟩
  | .hbm, ⟨7, _⟩ => ⟨S8x256x8192, .f32⟩
  | .hbm, ⟨8, _⟩ => ⟨S_, .f32⟩
  | .hbm, ⟨9, _⟩ => ⟨S8x256x8192, .f32⟩
  | .hbm, ⟨10, _⟩ => ⟨S8x256x8192, .f32⟩
  | .hbm, ⟨11, _⟩ => ⟨S_, .f32⟩
  | .hbm, ⟨12, _⟩ => ⟨S8x256x8192, .f32⟩
  | .hbm, ⟨13, _⟩ => ⟨S8x256x8192, .f32⟩
  | .hbm, ⟨14, _⟩ => ⟨S8x256x8192, .f32⟩
  | .hbm, ⟨15, _⟩ => ⟨S8x256x8192, .f32⟩
  | .hbm, ⟨16, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x256x8192 : S_.BroadcastsInDim S8x256x8192 (![] : Fin 0 → Fin S8x256x8192.rank)
  dot_S8x256x2048_S8x2048x8192_S8x256x8192_2_1_1_2_0_0_wf : DotDims.WF S8x256x2048 S8x2048x8192 S8x256x8192 [2] [1] [1] [2] [0] [0]
  dot_S8x256x8192_S8x2048x8192_S8x256x2048_2_2_1_1_0_0_wf : DotDims.WF S8x256x8192 S8x2048x8192 S8x256x2048 [2] [2] [1] [1] [0] [0]

variable [Facts₀]

def dot_S8x256x2048_S8x2048x8192_S8x256x8192_2_1_1_2_0_0 : DotDims S8x256x2048 S8x2048x8192 S8x256x8192 where
  lhsContracting := [2]
  rhsContracting := [1]
  lhsNonContracting := [1]
  rhsNonContracting := [2]
  lhsBatch := [0]
  rhsBatch := [0]
  wf := dot_S8x256x2048_S8x2048x8192_S8x256x8192_2_1_1_2_0_0_wf
def dot_S8x256x8192_S8x2048x8192_S8x256x2048_2_2_1_1_0_0 : DotDims S8x256x8192 S8x2048x8192 S8x256x2048 where
  lhsContracting := [2]
  rhsContracting := [2]
  lhsNonContracting := [1]
  rhsNonContracting := [1]
  lhsBatch := [0]
  rhsBatch := [0]
  wf := dot_S8x256x8192_S8x2048x8192_S8x256x2048_2_2_1_1_0_0_wf

class Facts : Prop extends Facts₀ where

variable [Facts]
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.Spec.lean ====
/-
  The gated feed-forward layer of a bank of eight experts, as one function of its four arrays.

  For expert \`e\`, token \`t\` and hidden unit \`h\` the two projections are
  \`p₁ = ∑ₖ x[e,t,k] · w1[e,k,h]\` and \`p₃ = ∑ₖ x[e,t,k] · w3[e,k,h]\`; the hidden activation is
  \`silu(p₁) · p₃\` with \`silu(a) = a · 1/(1 + e^(-a))\`; and the layer's output at \`(e, t, d)\` is the sum over all
  8192 hidden units of the activation times \`w2[e,d,h]\`.

  The hidden axis may be walked in 16 consecutive tiles of 512 units, the tiles' contributions added to a running
  total that starts from zero.  On the extended reals addition is associative and commutative with neutral element
  zero at every value, the infinities included, so the running total after the last tile is the whole sum: no
  finiteness of the entries is needed for that.
-/
import Idealize.ShloMosaic.PureOps.Ideal.Laws
import Idealize.ShloMosaic.Lib.ValueIdx
import proofs.«155393_j41051297415846_2_alg».proof.Proof.LibSums

noncomputable section

open scoped BigOperators

namespace Cert.Swiglu

open Idealize.ShloMosaic Idealize.ShloMosaic.ValueIdx

/-- The activations' and the output's shape: expert, token, model coordinate. -/
abbrev SX : Shape := ⟨3, ![8, 256, 2048]⟩
/-- A weight bank's shape: expert, model coordinate, hidden unit. -/
abbrev SW : Shape := ⟨3, ![8, 2048, 8192]⟩

/-- Token \`t\` of expert \`e\` projected on hidden unit \`h\` by the weight bank \`w\`. -/
def proj (x : SX.Idx → EReal) (w : SW.Idx → EReal) (e : Fin 8) (t : Fin 256) (h : Fin 8192) : EReal :=
  ∑ k : Fin 2048, x (ix3 e t k) * w (ix3 e k h)

/-- \`silu(a) = a · 1/(1 + e^(-a))\` on the extended reals. -/
def silu (a : EReal) : EReal := a * Ideal.logistic a

/-- The gated hidden activation. -/
def hidden (x : SX.Idx → EReal) (w1 w3 : SW.Idx → EReal) (e : Fin 8) (t : Fin 256) (h : Fin 8192) : EReal :=
  silu (proj x w1 e t h) * proj x w3 e t h

/-- Hidden unit \`h\`'s contribution to output coordinate \`d\`. -/
def term (x : SX.Idx → EReal) (w1 w2 w3 : SW.Idx → EReal) (e : Fin 8) (t : Fin 256) (d : Fin 2048) (h : Fin 8192) : EReal :=
  hidden x w1 w3 e t h * w2 (ix3 e d h)

/-- The layer: every hidden unit's contribution, summed. -/
def ffn (x : SX.Idx → EReal) (w1 w2 w3 : SW.Idx → EReal) : SX.Idx → EReal :=
  fun i => ∑ h : Fin 8192, term x w1 w2 w3 (i 0) (i 1) (i 2) h

/-- Unit \`r\` of tile \`j\` of the hidden axis: \`512 · j + r\`. -/
def unit (j : Fin 16) (r : Fin 512) : Fin 8192 :=
  ⟨512 * j.val + r.val, by have := j.isLt; have := r.isLt; omega⟩

/-- One tile's contribution to output coordinate \`d\`. -/
def tile (x : SX.Idx → EReal) (w1 w2 w3 : SW.Idx → EReal) (e : Fin 8) (t : Fin 256) (d : Fin 2048) (j : Fin 16) : EReal :=
  ∑ r : Fin 512, term x w1 w2 w3 e t d (unit j r)

/-- The tiles counted by a natural number (zero past the last tile). -/
def tileN (x : SX.Idx → EReal) (w1 w2 w3 : SW.Idx → EReal) (e : Fin 8) (t : Fin 256) (d : Fin 2048) (n : ℕ) : EReal :=
  if h : n < 16 then tile x w1 w2 w3 e t d ⟨n, h⟩ else 0

/-- The running total after tile \`n\`: zero, then tiles \`0 … n\` added in order. -/
def running (x : SX.Idx → EReal) (w1 w2 w3 : SW.Idx → EReal) (e : Fin 8) (t : Fin 256) (d : Fin 2048) (n : ℕ) : EReal :=
  0 + ∑ j ∈ Finset.range (n + 1), tileN x w1 w2 w3 e t d j

theorem running_zero (x : SX.Idx → EReal) (w1 w2 w3 : SW.Idx → EReal) (e : Fin 8) (t : Fin 256) (d : Fin 2048) :
    running x w1 w2 w3 e t d 0 = 0 + tile x w1 w2 w3 e t d 0 := by
  unfold running
  rw [Finset.sum_range_one]
  rfl

theorem running_succ (x : SX.Idx → EReal) (w1 w2 w3 : SW.Idx → EReal) (e : Fin 8) (t : Fin 256) (d : Fin 2048)
    (n : ℕ) (hn : n + 1 < 16) :
    running x w1 w2 w3 e t d (n + 1) = running x w1 w2 w3 e t d n + tile x w1 w2 w3 e t d ⟨n + 1, hn⟩ := by
  unfold running
  rw [Finset.sum_range_succ _ (n + 1), ← add_assoc]
  congr 1
  unfold tileN
  rw [dif_pos hn]

/-- The same step with the tile named by its index. -/
theorem running_step (x : SX.Idx → EReal) (w1 w2 w3 : SW.Idx → EReal) (e : Fin 8) (t : Fin 256) (d : Fin 2048)
    (n : ℕ) (j : Fin 16) (hj : j.val = n + 1) :
    running x w1 w2 w3 e t d (n + 1) = running x w1 w2 w3 e t d n + tile x w1 w2 w3 e t d j := by
  obtain ⟨jv, hjv⟩ := j
  obtain rfl : jv = n + 1 := hj
  exact running_succ x w1 w2 w3 e t d n hjv

/-! ## A tile's contribution from blocks

  One expert's activation block has shape \`[256, 2048]\`; a tile's block of a weight bank has shape \`[1, 2048, 512]\`. -/

/-- An expert's activation block. -/
abbrev SXB : Shape := ⟨2, ![256, 2048]⟩
/-- One tile's block of a weight bank. -/
abbrev SWB : Shape := ⟨3, ![1, 2048, 512]⟩

/-- The gated hidden value of token \`p\` at the tile's unit \`r\`, from an activation block and the tile's blocks of the
    two projecting banks. -/
def gated (xb : SXB.Idx → EReal) (b1 b3 : SWB.Idx → EReal) (p : Fin 256) (r : Fin 512) : EReal :=
  ((∑ k : Fin 2048, xb (ix2 p k) * b1 (ix3 (0 : Fin 1) k r))
      * Ideal.logistic (∑ k : Fin 2048, xb (ix2 p k) * b1 (ix3 (0 : Fin 1) k r)))
    * (∑ k : Fin 2048, xb (ix2 p k) * b3 (ix3 (0 : Fin 1) k r))

/-- When the activation block holds expert \`e\`'s rows of \`x\` and the three weight blocks hold tile \`j\` of expert \`e\`'s
    banks, the gated values against the third block sum to tile \`j\`'s contribution. -/
theorem tile_of_blocks (x : SX.Idx → EReal) (w1 w2 w3 : SW.Idx → EReal) (e : Fin 8) (j : Fin 16)
    (xb : SXB.Idx → EReal) (b1 b2 b3 : SWB.Idx → EReal)
    (hx : ∀ (p : Fin 256) (k : Fin 2048), xb (ix2 p k) = x (ix3 e p k))
    (h1 : ∀ (k : Fin 2048) (r : Fin 512), b1 (ix3 (0 : Fin 1) k r) = w1 (ix3 e k (unit j r)))
    (h2 : ∀ (k : Fin 2048) (r : Fin 512), b2 (ix3 (0 : Fin 1) k r) = w2 (ix3 e k (unit j r)))
    (h3 : ∀ (k : Fin 2048) (r : Fin 512), b3 (ix3 (0 : Fin 1) k r) = w3 (ix3 e k (unit j r)))
    (p : Fin 256) (q : Fin 2048) :
    ∑ r : Fin 512, gated xb b1 b3 p r * b2 (ix3 (0 : Fin 1) q r) = tile x w1 w2 w3 e p q j := by
  unfold tile term hidden silu proj gated
  refine Finset.sum_congr rfl fun r _ => ?_
  simp only [hx, h1, h2, h3]

/-- The running total after the last tile is the layer's output: the 8192 hidden units are the 16 tiles' 512. -/
theorem running_last (x : SX.Idx → EReal) (w1 w2 w3 : SW.Idx → EReal) (e : Fin 8) (t : Fin 256) (d : Fin 2048) :
    running x w1 w2 w3 e t d 15 = ffn x w1 w2 w3 (ix3 e t d) := by
  unfold running ffn
  rw [zero_add, Finset.sum_range]
  show _ = ∑ h : Fin 8192, term x w1 w2 w3 e t d h
  rw [Cert.Sums.sum_fin_stretches 16 512 (fun h : Fin (16 * 512) => term x w1 w2 w3 e t d h)]
  refine Finset.sum_congr rfl fun j _ => ?_
  unfold tileN
  rw [dif_pos j.isLt]
  unfold tile
  refine Finset.sum_congr rfl fun r _ => ?_
  congr 1
  apply Fin.ext
  show 512 * j.val + r.val = (finProdFinEquiv (j, r)).val
  rw [finProdFinEquiv_apply_val]
  show 512 * j.val + r.val = r.val + 512 * j.val
  omega

end Cert.Swiglu

end
-- ==== Proof.RefValue.lean ====
/-
  The reference program computes the gated feed-forward layer.

  Read one operation at a time, the reference's result at \`(e, t, d)\` is the sum over the 8192 hidden units \`h\` of
  \`(p₁ · (1 / (1 + e^(-p₁)))) · p₃ · w2[e,d,h]\`, where \`p₁\` and \`p₃\` are the batched products of \`x\` with \`w1\` and
  \`w3\` at \`(e, t, h)\`.  Its quotient \`1 / (1 + e^(-a))\`, spelt with the host's negation, exponential, sum and
  division and the constant one, is the logistic function on the extended reals at every value, so the reference's
  gate is \`silu\` and its result is \`ffn\`.
-/
import proofs.«155393_j41051297415846_2_alg».proof.Proof.Gen.ReferenceIdeal.Read
import proofs.«155393_j41051297415846_2_alg».proof.Proof.Spec
import Idealize.ShloMosaic.Lib.IdealHost

noncomputable section

open scoped BigOperators

namespace Cert.Swiglu.Ref

open Cert.ReferenceIdeal Cert.ReferenceIdeal.Read Idealize.ShloMosaic Idealize.ShloMosaic.ValueIdx Cert.Swiglu

/-! The operand indices of the three batched products, in coordinates. -/

theorem down_lhs (e : Fin 8) (t : Fin 256) (d : Fin 2048) (h : Fin 8192) : lidx_main_v4 (ix3 e t d) h = ix3 e t h :=
  funext fun a => Fin.ext (by match a with | ⟨0, _⟩ => rfl | ⟨1, _⟩ => rfl | ⟨2, _⟩ => rfl)

theorem down_rhs (e : Fin 8) (t : Fin 256) (d : Fin 2048) (h : Fin 8192) : ridx_main_v4 (ix3 e t d) h = ix3 e d h :=
  funext fun a => Fin.ext (by match a with | ⟨0, _⟩ => rfl | ⟨1, _⟩ => rfl | ⟨2, _⟩ => rfl)

theorem gate_lhs (e : Fin 8) (t : Fin 256) (h : Fin 8192) (k : Fin 2048) : lidx_main_v0 (ix3 e t h) k = ix3 e t k :=
  funext fun a => Fin.ext (by match a with | ⟨0, _⟩ => rfl | ⟨1, _⟩ => rfl | ⟨2, _⟩ => rfl)

theorem gate_rhs (e : Fin 8) (t : Fin 256) (h : Fin 8192) (k : Fin 2048) : ridx_main_v0 (ix3 e t h) k = ix3 e k h :=
  funext fun a => Fin.ext (by match a with | ⟨0, _⟩ => rfl | ⟨1, _⟩ => rfl | ⟨2, _⟩ => rfl)

theorem up_lhs (e : Fin 8) (t : Fin 256) (h : Fin 8192) (k : Fin 2048) : lidx_main_v1 (ix3 e t h) k = ix3 e t k :=
  funext fun a => Fin.ext (by match a with | ⟨0, _⟩ => rfl | ⟨1, _⟩ => rfl | ⟨2, _⟩ => rfl)

theorem up_rhs (e : Fin 8) (t : Fin 256) (h : Fin 8192) (k : Fin 2048) : ridx_main_v1 (ix3 e t h) k = ix3 e k h :=
  funext fun a => Fin.ext (by match a with | ⟨0, _⟩ => rfl | ⟨1, _⟩ => rfl | ⟨2, _⟩ => rfl)

/-- The gate projection, read at \`(e, t, h)\`. -/
theorem gate_apply (x : SX.Idx → EReal) (w1 : SW.Idx → EReal) (e : Fin 8) (t : Fin 256) (h : Fin 8192) :
    val_main_v0 (F := Ideal) x w1 (ix3 e t h) = proj x w1 e t h := by
  rw [val_main_v0_apply]
  unfold proj
  refine Finset.sum_congr rfl fun k _ => ?_
  rw [gate_lhs, gate_rhs]

/-- The up projection, read at \`(e, t, h)\`. -/
theorem up_apply (x : SX.Idx → EReal) (w3 : SW.Idx → EReal) (e : Fin 8) (t : Fin 256) (h : Fin 8192) :
    val_main_v1 (F := Ideal) x w3 (ix3 e t h) = proj x w3 e t h := by
  rw [val_main_v1_apply]
  unfold proj
  refine Finset.sum_congr rfl fun k _ => ?_
  rw [up_lhs, up_rhs]

/-- The host's spelling \`a · (1 / (1 + exp (-a)))\` of the gate is \`silu\`: its constant is the real one, and the
    quotient is the logistic function's own definition. -/
theorem gated_apply (x : SX.Idx → EReal) (w1 : SW.Idx → EReal) (e : Fin 8) (t : Fin 256) (h : Fin 8192) :
    val_main_v2 (F := Ideal) x w1 (ix3 e t h) = silu (proj x w1 e t h) := by
  rw [val_main_v2_apply, val_main_call0_v5_apply, val_main_call0_v4_apply, val_main_call0_cst_0_apply,
    val_main_call0_v3_apply, val_main_call0_v2_apply, val_main_call0_cst_apply, val_main_call0_v1_apply,
    val_main_call0_v0_apply, gate_apply]
  unfold silu Ideal.logistic
  simp only [Ideal.ofBits_def, Ideal.ofBits_one_f32]
  rfl

/-- The reference's result, as a function of its four arguments, is the layer. -/
theorem result_is_ffn (x : SX.Idx → EReal) (w1 w2 w3 : SW.Idx → EReal) :
    val_main_v4 (F := Ideal) x w1 w2 w3 = ffn x w1 w2 w3 := by
  funext i
  obtain ⟨e, t, d, rfl⟩ : ∃ (e : Fin 8) (t : Fin 256) (d : Fin 2048), i = ix3 e t d := ⟨i 0, i 1, i 2, eq_ix3 i⟩
  rw [val_main_v4_apply]
  show _ = ∑ h : Fin 8192, term x w1 w2 w3 e t d h
  refine Finset.sum_congr rfl fun h _ => ?_
  rw [down_lhs, down_rhs, val_main_v3_apply, gated_apply, up_apply]
  rfl

end Cert.Swiglu.Ref

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.Body.lean ====
/-
  What one grid point's body computes, entry by entry, on the extended reals.

  The body keeps two things between grid points: the expert's activation block \`xb\` (a copy of the expert's rows of
  \`x\`, made at the expert's first tile) and the running output block \`acc\`.  At every point it forms, for the tile's
  512 hidden units \`r\`, the two projections \`g r = ∑ₖ xb[t,k] · w1[k,r]\` and \`u r = ∑ₖ xb[t,k] · w3[k,r]\` of the
  tile's weight blocks, gates them, \`(g r · logistic (g r)) · u r\`, and adds to \`acc[t,d]\` the sum over \`r\` of the gated
  value times \`w2[d,r]\`.  A change of float format is the identity on the extended reals, a product into a zero
  accumulator is the plain sum of products, and the reshapes between \`[1,a,b]\` and \`[a,b]\` only rename indices.
-/
import proofs.«155393_j41051297415846_2_alg».proof.Proof.Gen.KernelIdeal.Skeleton
import proofs.«155393_j41051297415846_2_alg».proof.Proof.LibDotIdx
import proofs.«155393_j41051297415846_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Swiglu.Body

open Cert.KernelIdeal Cert.KernelIdeal.Gen Idealize.ShloMosaic Idealize.ShloMosaic.ValueIdx
open Cert.Swiglu (gated)

/-- The block the first tile's reset stores: zero everywhere. -/
theorem reset_apply (y : S256x2048.Idx) : k0_pay1 (F := Ideal) y = 0 := by
  unfold k0_pay1
  show shapeCast S256x2048 (broadcast S256x2048 (Scalar.ofBits (F := Ideal) .f32 0x00000000#32)) shapeCasts_S256x2048_S256x2048 y = 0
  rw [shapeCast_self]
  exact Ideal.ofBits_zero_f32

/-- The activation block the first tile caches: the expert's rows of \`x\`, the leading unit axis dropped. -/
theorem cache_apply (x0 : FVec Ideal S1x256x2048 .f32) (p : Fin 256) (q : Fin 2048) :
    k0_pay2 (F := Ideal) x0 (ix2 p q) = x0 (ix3 (0 : Fin 1) p q) := by
  unfold k0_pay2
  show shapeCast S256x2048 (truncf .bf16 (shapeCast S256x2048 x0 shapeCasts_S1x256x2048_S256x2048) bitsLt_bf16_f32)
      shapeCasts_S256x2048_S256x2048 (ix2 p q) = _
  rw [shapeCast_self]
  exact shapeCast_1ab_ab_apply x0 shapeCasts_S1x256x2048_S256x2048 p q

/-- A tile's weight block as the products see it: the leading unit axis dropped, the format change the identity. -/
theorem weights_apply (b : FVec Ideal S1x2048x512 .f32) (k : Fin 2048) (r : Fin 512) :
    (truncf .bf16 (shapeCast S2048x512 b shapeCasts_S1x2048x512_S2048x512) bitsLt_bf16_f32 : FVec Ideal S2048x512 .bf16) (ix2 k r)
      = b (ix3 (0 : Fin 1) k r) :=
  shapeCast_1ab_ab_apply b shapeCasts_S1x2048x512_S2048x512 k r

/-- A projection of the cached activations by a tile's weight block, at token \`p\` and the tile's unit \`r\`. -/
theorem proj_apply (xb : FVec Ideal S256x2048 .bf16) (b : FVec Ideal S1x2048x512 .f32) (p : Fin 256) (r : Fin 512) :
    matmul dot_S256x2048_S2048x512_S256x512_1_0_0_1_n_n none xb
        (truncf .bf16 (shapeCast S2048x512 b shapeCasts_S1x2048x512_S2048x512) bitsLt_bf16_f32 : FVec Ideal S2048x512 .bf16)
        (constant S256x512 .f32 0x00000000#32) (ix2 p r)
      = ∑ k : Fin 2048, xb (ix2 p k) * b (ix3 (0 : Fin 1) k r) := by
  refine (DotIdx.matmul_plain_zero_apply dot_S256x2048_S2048x512_S256x512_1_0_0_1_n_n_wf none xb _ p r).trans ?_
  exact Finset.sum_congr rfl fun k _ => congrArg (xb (ix2 p k) * ·) (weights_apply b k r)

/-- What the body leaves in the running output block: what it held plus the tile's contribution. -/
theorem step_apply (xb : FVec Ideal S256x2048 .bf16) (b1 b3 b2 : FVec Ideal S1x2048x512 .f32)
    (acc : FVec Ideal S256x2048 .f32) (p : Fin 256) (q : Fin 2048) :
    k0_pay3 (F := Ideal) xb b1 b3 b2 acc (ix2 p q)
      = acc (ix2 p q) + ∑ r : Fin 512, gated xb b1 b3 p r * b2 (ix3 (0 : Fin 1) q r) := by
  unfold k0_pay3
  show shapeCast S256x2048 (addf acc (matmul dot_S256x512_S2048x512_S256x2048_1_1_0_0_n_n none
      (truncf .bf16 (mulf (mulf
          (matmul dot_S256x2048_S2048x512_S256x512_1_0_0_1_n_n none xb
            (truncf .bf16 (shapeCast S2048x512 b1 shapeCasts_S1x2048x512_S2048x512) bitsLt_bf16_f32 : FVec Ideal S2048x512 .bf16)
            (constant S256x512 .f32 0x00000000#32))
          (logistic (matmul dot_S256x2048_S2048x512_S256x512_1_0_0_1_n_n none xb
            (truncf .bf16 (shapeCast S2048x512 b1 shapeCasts_S1x2048x512_S2048x512) bitsLt_bf16_f32 : FVec Ideal S2048x512 .bf16)
            (constant S256x512 .f32 0x00000000#32))))
          (matmul dot_S256x2048_S2048x512_S256x512_1_0_0_1_n_n none xb
            (truncf .bf16 (shapeCast S2048x512 b3 shapeCasts_S1x2048x512_S2048x512) bitsLt_bf16_f32 : FVec Ideal S2048x512 .bf16)
            (constant S256x512 .f32 0x00000000#32))) bitsLt_bf16_f32 : FVec Ideal S256x512 .bf16)
      (truncf .bf16 (shapeCast S2048x512 b2 shapeCasts_S1x2048x512_S2048x512) bitsLt_bf16_f32 : FVec Ideal S2048x512 .bf16)
      (constant S256x2048 .f32 0x00000000#32))) shapeCasts_S256x2048_S256x2048 (ix2 p q) = _
  rw [shapeCast_self]
  refine congrArg (acc (ix2 p q) + ·) ?_
  refine (DotIdx.matmul_rows_zero_apply dot_S256x512_S2048x512_S256x2048_1_1_0_0_n_n_wf none _ _ p q).trans ?_
  refine Finset.sum_congr rfl fun r _ => ?_
  rw [weights_apply b2 q r]
  refine congrArg (· * b2 (ix3 (0 : Fin 1) q r)) ?_
  show (matmul dot_S256x2048_S2048x512_S256x512_1_0_0_1_n_n none xb _ _ (ix2 p r)
      * Ideal.logistic (matmul dot_S256x2048_S2048x512_S256x512_1_0_0_1_n_n none xb _ _ (ix2 p r)))
      * matmul dot_S256x2048_S2048x512_S256x512_1_0_0_1_n_n none xb _ _ (ix2 p r) = _
  rw [proj_apply xb b1 p r, proj_apply xb b3 p r]
  rfl

/-- An expert's first tile, from blocks that hold the expert's rows of \`x\` and tile 0 of its three banks: the running
    block is the running total after tile 0. -/
theorem first_value (x : Cert.Swiglu.SX.Idx → EReal) (w1 w2 w3 : Cert.Swiglu.SW.Idx → EReal) (e : Fin 8)
    (x0 : FVec Ideal S1x256x2048 .f32) (b1 b2 b3 : FVec Ideal S1x2048x512 .f32)
    (hx : ∀ (p : Fin 256) (k : Fin 2048), x0 (ix3 (0 : Fin 1) p k) = x (ix3 e p k))
    (h1 : ∀ (k : Fin 2048) (r : Fin 512), b1 (ix3 (0 : Fin 1) k r) = w1 (ix3 e k (Cert.Swiglu.unit 0 r)))
    (h2 : ∀ (k : Fin 2048) (r : Fin 512), b2 (ix3 (0 : Fin 1) k r) = w2 (ix3 e k (Cert.Swiglu.unit 0 r)))
    (h3 : ∀ (k : Fin 2048) (r : Fin 512), b3 (ix3 (0 : Fin 1) k r) = w3 (ix3 e k (Cert.Swiglu.unit 0 r)))
    (p : Fin 256) (q : Fin 2048) :
    k0_pay3 (F := Ideal) (k0_pay2 (F := Ideal) x0) b1 b3 b2 (k0_pay1 (F := Ideal)) (ix2 p q)
      = Cert.Swiglu.running x w1 w2 w3 e p q 0 := by
  refine (step_apply (k0_pay2 (F := Ideal) x0) b1 b3 b2 (k0_pay1 (F := Ideal)) p q).trans ?_
  rw [reset_apply, Cert.Swiglu.running_zero]
  refine congrArg (0 + ·) ?_
  exact Cert.Swiglu.tile_of_blocks x w1 w2 w3 e 0 (k0_pay2 (F := Ideal) x0) b1 b2 b3
    (fun p k => (cache_apply x0 p k).trans (hx p k)) h1 h2 h3 p q

/-- A later tile \`j = n + 1\`, from the cached rows of \`x\`, the running total after tile \`n\` and tile \`j\` of the three
    banks: the running block is the running total after tile \`j\`. -/
theorem next_value (x : Cert.Swiglu.SX.Idx → EReal) (w1 w2 w3 : Cert.Swiglu.SW.Idx → EReal) (e : Fin 8)
    (n : ℕ) (j : Fin 16) (hj : j.val = n + 1)
    (xb : FVec Ideal S256x2048 .bf16) (acc : FVec Ideal S256x2048 .f32) (b1 b2 b3 : FVec Ideal S1x2048x512 .f32)
    (hxb : ∀ (p : Fin 256) (k : Fin 2048), xb (ix2 p k) = x (ix3 e p k))
    (hacc : ∀ (p : Fin 256) (q : Fin 2048), acc (ix2 p q) = Cert.Swiglu.running x w1 w2 w3 e p q n)
    (h1 : ∀ (k : Fin 2048) (r : Fin 512), b1 (ix3 (0 : Fin 1) k r) = w1 (ix3 e k (Cert.Swiglu.unit j r)))
    (h2 : ∀ (k : Fin 2048) (r : Fin 512), b2 (ix3 (0 : Fin 1) k r) = w2 (ix3 e k (Cert.Swiglu.unit j r)))
    (h3 : ∀ (k : Fin 2048) (r : Fin 512), b3 (ix3 (0 : Fin 1) k r) = w3 (ix3 e k (Cert.Swiglu.unit j r)))
    (p : Fin 256) (q : Fin 2048) :
    k0_pay3 (F := Ideal) xb b1 b3 b2 acc (ix2 p q) = Cert.Swiglu.running x w1 w2 w3 e p q (n + 1) := by
  refine (step_apply xb b1 b3 b2 acc p q).trans ?_
  rw [hacc p q, Cert.Swiglu.running_step x w1 w2 w3 e p q n j hj]
  refine congrArg (Cert.Swiglu.running x w1 w2 w3 e p q n + ·) ?_
  exact Cert.Swiglu.tile_of_blocks x w1 w2 w3 e j xb b1 b2 b3 hxb h1 h2 h3 p q

/-- The output block the last tile stores: the running block under a leading unit axis. -/
theorem emit_apply (acc : FVec Ideal S256x2048 .f32) (u : Fin 1) (p : Fin 256) (q : Fin 2048) :
    k0_pay4 (F := Ideal) acc (ix3 u p q) = acc (ix2 p q) := by
  unfold k0_pay4
  exact shapeCast_ab_1ab_apply acc shapeCasts_S256x2048_S1x256x2048 u p q

end Cert.Swiglu.Body

end
-- ==== Proof.Pieces.lean ====
/-
  What each of the body's three control cases leaves behind, as values.

  At an expert's first tile the body clears the running output block, caches the expert's activation block, and adds
  the tile's contribution to the cleared block.  At a middle tile it adds the tile's contribution to what the tile
  before left, the cached activations untouched.  At the last tile it does the same and then stores the running
  block as the expert's output block.  Each statement below reads one of those stored values back: every store
  covers its whole buffer, so what a buffer holds afterwards is the last value stored, and a load of a buffer just
  stored reads that value.
-/
import proofs.«155393_j41051297415846_2_alg».proof.Proof.Gen.KernelIdeal.Frame
import Idealize.ShloMosaic.Lib.Pipeline.Value
import Idealize.ShloMosaic.Lib.Tactic

noncomputable section

namespace Cert.Swiglu.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the running block is the tile's contribution over the cleared block, from the freshly cached
    activations. -/
theorem acc_first (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .bf16) (harg8 : arg8.IsWhole) (hc0 : cond0_0 i) (hc1 : ¬cond0_1 i) (x0 : Vec F S1x256x2048 .f32) (x1 : Vec F S1x2048x512 .f32) (x2 : Vec F S1x2048x512 .f32) (x3 : Vec F S1x2048x512 .f32) :
    sout0_A_0 c i arg2 harg2 arg3 harg3 arg4 harg4 arg5 harg5 arg6 harg6 arg7 harg7 arg8 harg8 hc0 hc1 x0 x1 x2 x3 = k0_pay3 (k0_pay2 x0) x1 x3 x2 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x2048) hz2]
  rw [View.readCov_unit_zero (S := S256x2048) arg8.view hz2, View.readCov_unit_zero (S := S256x2048) arg7.view hz2]
  simp only [View.readAt_eq_ld, harg2.read_unread, harg3.read_unread, harg4.read_unread, harg5.read_unread,
    View.ld_unit_zero (S := S1x256x2048) hz3, View.ld_unit_zero (S := S1x2048x512) hz3]

/-- First tile: the cache holds the expert's activation block. -/
theorem cache_first (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .bf16) (harg8 : arg8.IsWhole) (hc0 : cond0_0 i) (hc1 : ¬cond0_1 i) (x0 : Vec F S1x256x2048 .f32) (x1 : Vec F S1x2048x512 .f32) (x2 : Vec F S1x2048x512 .f32) (x3 : Vec F S1x2048x512 .f32) :
    sout0_A_1 c i arg2 harg2 arg3 harg3 arg4 harg4 arg5 harg5 arg6 harg6 arg7 harg7 arg8 harg8 hc0 hc1 x0 x1 x2 x3 = k0_pay2 x0 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero (S := S256x2048) hz2]
  simp only [View.readAt_eq_ld, harg2.read_unread, View.ld_unit_zero (S := S1x256x2048) hz3]

/-- Middle tile: the running block is the tile's contribution over what the tile before left. -/
theorem acc_middle (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .bf16) (harg8 : arg8.IsWhole) (hc0 : ¬cond0_0 i) (hc1 : ¬cond0_1 i) (x0 : Vec F S1x256x2048 .f32) (x1 : Vec F S1x2048x512 .f32) (x2 : Vec F S1x2048x512 .f32) (x3 : Vec F S1x2048x512 .f32) (xs0 : Vec F S256x2048 .f32) (xs1 : Vec F S256x2048 .bf16) :
    sout0_B_0 c i arg2 harg2 arg3 harg3 arg4 harg4 arg5 harg5 arg6 harg6 arg7 harg7 arg8 harg8 hc0 hc1 x0 x1 x2 x3 xs0 xs1 = k0_pay3 xs1 x1 x3 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz2]
  simp only [View.readAt_eq_ld, harg3.read_unread, harg4.read_unread, harg5.read_unread, harg7.read_unread, harg8.read_unread,
    View.ld_unit_zero (S := S256x2048) hz2, View.ld_unit_zero (S := S1x2048x512) hz3]

/-- Last tile: the running block likewise. -/
theorem acc_last (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .bf16) (harg8 : arg8.IsWhole) (hc0 : ¬cond0_0 i) (hc1 : cond0_1 i) (x0 : Vec F S1x256x2048 .f32) (x1 : Vec F S1x2048x512 .f32) (x2 : Vec F S1x2048x512 .f32) (x3 : Vec F S1x2048x512 .f32) (xs0 : Vec F S256x2048 .f32) (xs1 : Vec F S256x2048 .bf16) :
    sout0_C_0 c i arg2 harg2 arg3 harg3 arg4 harg4 arg5 harg5 arg6 harg6 arg7 harg7 arg8 harg8 hc0 hc1 x0 x1 x2 x3 xs0 xs1 = k0_pay3 xs1 x1 x3 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg3.read_unread, harg4.read_unread, harg5.read_unread, harg7.read_unread, harg8.read_unread,
    View.ld_unit_zero (S := S256x2048) hz2, View.ld_unit_zero (S := S1x2048x512) hz3]

/-- Last tile: the output block is the running block just stored, under a leading unit axis. -/
theorem out_last (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .bf16) (harg8 : arg8.IsWhole) (hc0 : ¬cond0_0 i) (hc1 : cond0_1 i) (x0 : Vec F S1x256x2048 .f32) (x1 : Vec F S1x2048x512 .f32) (x2 : Vec F S1x2048x512 .f32) (x3 : Vec F S1x2048x512 .f32) (xs0 : Vec F S256x2048 .f32) (xs1 : Vec F S256x2048 .bf16) :
    out0_C_4 c i arg2 harg2 arg3 harg3 arg4 harg4 arg5 harg5 arg6 harg6 arg7 harg7 arg8 harg8 hc0 hc1 x0 x1 x2 x3 xs0 xs1 = k0_pay4 (k0_pay3 xs1 x1 x3 x2 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1x256x2048) hz3]
  rw [View.readCov_unit_zero (S := S256x2048) arg7.view hz2]
  simp only [View.readAt_eq_ld, harg3.read_unread, harg4.read_unread, harg5.read_unread, harg7.read_unread, harg8.read_unread,
    View.ld_unit_zero (S := S256x2048) hz2, View.ld_unit_zero (S := S1x2048x512) hz3]

end Cert.Swiglu.Pieces

end
-- ==== Proof.Cases.lean ====
/-
  What the carried buffers hold after a grid point, case by case, in terms of the body's stored values.

  At an expert's first tile (points ≡ 0 mod 16) the running block and the cache are the first tile's stored values of
  the point's blocks.  At every later tile the running block is the tile's step over what the point before left in
  both buffers, and the cache is what the point before left.  At an expert's last tile (points ≡ 15 mod 16) the output
  block is the running block just stored, under a leading unit axis.
-/
import proofs.«155393_j41051297415846_2_alg».proof.Proof.Gen.KernelIdeal.Frame
import proofs.«155393_j41051297415846_2_alg».proof.Proof.Pieces

noncomputable section

namespace Cert.Swiglu.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- First tile: the running block. -/
theorem first_acc (c : Dev nD) (t : Fin cfg0.N) (h0 : t.val % 16 = 0) (h1 : ¬t.val % 16 = 15) :
    (outsAt0 m c t.val t.isLt).2.1 = k0_pay3 (k0_pay2 (iblk m c 0 t)) (iblk m c 1 t) (iblk m c 3 t) (iblk m c 2 t) k0_pay1 := by
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- First tile: the cache. -/
theorem first_cache (c : Dev nD) (t : Fin cfg0.N) (h0 : t.val % 16 = 0) (h1 : ¬t.val % 16 = 15) :
    (outsAt0 m c t.val t.isLt).2.2 = k0_pay2 (iblk m c 0 t) := by
  rw [outsAt0_A m c t h0 h1]
  dsimp only
  exact Pieces.cache_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- A later tile: the running block steps over what the point before left. -/
theorem later_acc (c : Dev nD) (t : Fin cfg0.N) (h0 : ¬t.val % 16 = 0) :
    (outsAt0 m c t.val t.isLt).2.1
      = k0_pay3 (outsAt0 m c (t.val - 1) (Nat.lt_of_le_of_lt (Nat.sub_le _ _) t.isLt)).2.2 (iblk m c 1 t) (iblk m c 3 t) (iblk m c 2 t) (outsAt0 m c (t.val - 1) (Nat.lt_of_le_of_lt (Nat.sub_le _ _) t.isLt)).2.1 := by
  by_cases h1 : t.val % 16 = 15
  · rw [outsAt0_C m c t h0 h1]
    dsimp only
    exact Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- A later tile: the cache is what the point before left. -/
theorem later_cache (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  by_cases h1 : t.val % 16 = 15
  · rw [outsAt0_C m c t h0 h1]; dsimp only; rfl
  · rw [outsAt0_B m c t h0 h1]; dsimp only; rfl

/-- Last tile: the output block is the running block under a leading unit axis. -/
theorem last_out (c : Dev nD) (t : Fin cfg0.N) (h15 : t.val % 16 = 15) :
    (outsAt0 m c t.val t.isLt).1 = k0_pay4 (outsAt0 m c t.val t.isLt).2.1 := by
  have h0 : ¬t.val % 16 = 0 := by omega
  rw [outsAt0_C m c t h0 h15]
  dsimp only
  rw [Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

end Cert.Swiglu.Cases

end
-- ==== Proof.Blocks.lean ====
/-
  Where each grid point's blocks sit in the arrays.

  The grid walks the experts in order and, inside an expert, the 16 tiles of the hidden axis in order: point \`t\` is
  tile \`t mod 16\` of expert \`t div 16\`.  The activation window and the output window take the expert's whole
  \`[256, 2048]\` slab; each weight window takes, of the expert's \`[2048, 8192]\` bank, the 512 columns of the tile.  An
  element of a block sits in its array at block index × block extent + its coordinate inside the block, on every axis.
-/
import proofs.«155393_j41051297415846_2_alg».proof.Proof.Gen.KernelIdeal.Frame
import proofs.«155393_j41051297415846_2_alg».proof.Proof.Spec
import Idealize.ShloMosaic.Lib.Pipeline.Value
import Idealize.ShloMosaic.Lib.ValueIdx

noncomputable section

namespace Cert.Swiglu.Blocks

open Cert.KernelIdeal Cert.KernelIdeal.Gen Idealize.ShloMosaic Idealize.ShloMosaic.TcCoe Idealize.SL.Sem
open Idealize.ShloMosaic.ValueIdx
open Cert.Swiglu (unit)

variable {F : FTy → Type} [FloatOps F]
variable (m : (ℓ : Loc nD τ sig) → Buf (Elt F) ℓ)

/-- The five windows' block indices at every grid point: the expert on axis 0; on axis 2 the tile for the three
    weight windows and nothing for the activations and the output. -/
theorem idx_facts : ∀ t : Fin cfg0.N,
    (win0_0.index t (0 : Fin 3) = t.val / 16 ∧ win0_0.index t (1 : Fin 3) = 0 ∧ win0_0.index t (2 : Fin 3) = 0)
    ∧ (win0_1.index t (0 : Fin 3) = t.val / 16 ∧ win0_1.index t (1 : Fin 3) = 0 ∧ win0_1.index t (2 : Fin 3) = t.val % 16)
    ∧ (win0_2.index t (0 : Fin 3) = t.val / 16 ∧ win0_2.index t (1 : Fin 3) = 0 ∧ win0_2.index t (2 : Fin 3) = t.val % 16)
    ∧ (win0_3.index t (0 : Fin 3) = t.val / 16 ∧ win0_3.index t (1 : Fin 3) = 0 ∧ win0_3.index t (2 : Fin 3) = t.val % 16)
    ∧ (win0_4.index t (0 : Fin 3) = t.val / 16 ∧ win0_4.index t (1 : Fin 3) = 0 ∧ win0_4.index t (2 : Fin 3) = 0) :=
  (by decide +kernel : ∀ t : Fin grid0.N, _)

/-- The activation block at point \`t\` holds expert \`t div 16\`'s rows of \`x\`. -/
theorem acts_apply (c : Dev nD) (t : Fin cfg0.N) (e : Fin 8) (he : e.val = t.val / 16) (u : Fin 1) (p : Fin 256) (k : Fin 2048) :
    (iblk m c 0 t : Vec F S1x256x2048 .f32) (ix3 u p k) = m ((c : Thread nD τ).loc main_arg0) (ix3 e p k) := by
  obtain ⟨⟨h0, h1, h2⟩, -⟩ := idx_facts t
  unfold iblk
  rw [View.read_apply]
  show m ((c : Thread nD τ).loc main_arg0) (((cfg0.win 0).blk t).view.emb (ix3 u p k)) = _
  refine congrArg (m ((c : Thread nD τ).loc main_arg0)) ?_
  funext a; apply Fin.ext
  match a with
  | ⟨0, _⟩ => show win0_0.index t (0 : Fin 3) * 1 + 1 * u.val = e.val; have := u.isLt; omega
  | ⟨1, _⟩ => show win0_0.index t (1 : Fin 3) * 256 + 1 * p.val = p.val; omega
  | ⟨2, _⟩ => show win0_0.index t (2 : Fin 3) * 2048 + 1 * k.val = k.val; omega

/-- The first weight window's block at point \`t\` holds tile \`t mod 16\` of expert \`t div 16\`'s bank \`w1\`. -/
theorem bank1_apply (c : Dev nD) (t : Fin cfg0.N) (e : Fin 8) (he : e.val = t.val / 16) (j : Fin 16) (hj : j.val = t.val % 16)
    (u : Fin 1) (k : Fin 2048) (r : Fin 512) :
    (iblk m c 1 t : Vec F S1x2048x512 .f32) (ix3 u k r) = m ((c : Thread nD τ).loc main_arg1) (ix3 e k (unit j r)) := by
  obtain ⟨-, ⟨h0, h1, h2⟩, -⟩ := idx_facts t
  unfold iblk
  rw [View.read_apply]
  show m ((c : Thread nD τ).loc main_arg1) (((cfg0.win 1).blk t).view.emb (ix3 u k r)) = _
  refine congrArg (m ((c : Thread nD τ).loc main_arg1)) ?_
  funext a; apply Fin.ext
  match a with
  | ⟨0, _⟩ => show win0_1.index t (0 : Fin 3) * 1 + 1 * u.val = e.val; have := u.isLt; omega
  | ⟨1, _⟩ => show win0_1.index t (1 : Fin 3) * 2048 + 1 * k.val = k.val; omega
  | ⟨2, _⟩ => show win0_1.index t (2 : Fin 3) * 512 + 1 * r.val = 512 * j.val + r.val; omega

/-- The second weight window's block at point \`t\` holds the same tile of bank \`w2\`. -/
theorem bank2_apply (c : Dev nD) (t : Fin cfg0.N) (e : Fin 8) (he : e.val = t.val / 16) (j : Fin 16) (hj : j.val = t.val % 16)
    (u : Fin 1) (k : Fin 2048) (r : Fin 512) :
    (iblk m c 2 t : Vec F S1x2048x512 .f32) (ix3 u k r) = m ((c : Thread nD τ).loc main_arg2) (ix3 e k (unit j r)) := by
  obtain ⟨-, -, ⟨h0, h1, h2⟩, -⟩ := idx_facts t
  unfold iblk
  rw [View.read_apply]
  show m ((c : Thread nD τ).loc main_arg2) (((cfg0.win 2).blk t).view.emb (ix3 u k r)) = _
  refine congrArg (m ((c : Thread nD τ).loc main_arg2)) ?_
  funext a; apply Fin.ext
  match a with
  | ⟨0, _⟩ => show win0_2.index t (0 : Fin 3) * 1 + 1 * u.val = e.val; have := u.isLt; omega
  | ⟨1, _⟩ => show win0_2.index t (1 : Fin 3) * 2048 + 1 * k.val = k.val; omega
  | ⟨2, _⟩ => show win0_2.index t (2 : Fin 3) * 512 + 1 * r.val = 512 * j.val + r.val; omega

/-- The third weight window's block at point \`t\` holds the same tile of bank \`w3\`. -/
theorem bank3_apply (c : Dev nD) (t : Fin cfg0.N) (e : Fin 8) (he : e.val = t.val / 16) (j : Fin 16) (hj : j.val = t.val % 16)
    (u : Fin 1) (k : Fin 2048) (r : Fin 512) :
    (iblk m c 3 t : Vec F S1x2048x512 .f32) (ix3 u k r) = m ((c : Thread nD τ).loc main_arg3) (ix3 e k (unit j r)) := by
  obtain ⟨-, -, -, ⟨h0, h1, h2⟩, -⟩ := idx_facts t
  unfold iblk
  rw [View.read_apply]
  show m ((c : Thread nD τ).loc main_arg3) (((cfg0.win 3).blk t).view.emb (ix3 u k r)) = _
  refine congrArg (m ((c : Thread nD τ).loc main_arg3)) ?_
  funext a; apply Fin.ext
  match a with
  | ⟨0, _⟩ => show win0_3.index t (0 : Fin 3) * 1 + 1 * u.val = e.val; have := u.isLt; omega
  | ⟨1, _⟩ => show win0_3.index t (1 : Fin 3) * 2048 + 1 * k.val = k.val; omega
  | ⟨2, _⟩ => show win0_3.index t (2 : Fin 3) * 512 + 1 * r.val = 512 * j.val + r.val; omega

/-- An array of the output's shape read through point \`t\`'s output block: expert \`t div 16\`'s slab. -/
theorem slab_read (t : Fin cfg0.N) (e : Fin 8) (he : e.val = t.val / 16) (G : S8x256x2048.Idx → Elt F .f32)
    (u : Fin 1) (p : Fin 256) (q : Fin 2048) :
    ((cfg0.win 4).blk t).view.read (Elt F) G (ix3 u p q) = G (ix3 e p q) := by
  obtain ⟨-, -, -, -, ⟨h0, h1, h2⟩⟩ := idx_facts t
  rw [View.read_apply]
  refine congrArg G ?_
  funext a; apply Fin.ext
  match a with
  | ⟨0, _⟩ => show win0_4.index t (0 : Fin 3) * 1 + 1 * u.val = e.val; have := u.isLt; omega
  | ⟨1, _⟩ => show win0_4.index t (1 : Fin 3) * 256 + 1 * p.val = p.val; omega
  | ⟨2, _⟩ => show win0_4.index t (2 : Fin 3) * 2048 + 1 * q.val = q.val; omega

end Cert.Swiglu.Blocks

end
-- ==== Proof.Carry.lean ====
/-
  The kernel's result array is the gated feed-forward layer of its four arguments.

  Point \`t\` of the grid is tile \`t mod 16\` of expert \`t div 16\`.  Two facts are carried from point to point, by
  induction: after point \`t\` the cache holds expert \`t div 16\`'s rows of \`x\`, and the running output block holds, at
  \`(p, q)\`, the running total after tile \`t mod 16\` of that expert's output at \`(p, q)\`.  At an expert's first tile both
  are established afresh; at every later tile the cache is what the tile before left and the running block gains the
  tile's contribution.  The output window writes back at each expert's last tile only, and what it writes is the
  running block after tile 15: the expert's whole slab of the layer's output.  The eight slabs tile the result array.
-/
import proofs.«155393_j41051297415846_2_alg».proof.Proof.Gen.KernelIdeal.Value
import proofs.«155393_j41051297415846_2_alg».proof.Proof.Spec
import proofs.«155393_j41051297415846_2_alg».proof.Proof.Body
import proofs.«155393_j41051297415846_2_alg».proof.Proof.Cases
import proofs.«155393_j41051297415846_2_alg».proof.Proof.Blocks
import Idealize.ShloMosaic.Lib.Pipeline.Value

noncomputable section

namespace Cert.Swiglu.Carry

open Cert.KernelIdeal Cert.KernelIdeal.Gen Idealize.ShloMosaic Idealize.ShloMosaic.TcCoe Idealize.SL.Sem
open Idealize.ShloMosaic.ValueIdx
open Idealize.ShloMosaic.Pipeline (Dat)
open Cert.Swiglu

variable (m : (ℓ : Loc nD τ sig) → Buf (Elt Ideal) ℓ) (ρ : Dev nD → PrngReg)

/-- The four argument arrays as the kernel is launched with them. -/
abbrev X (c : Dev nD) : SX.Idx → EReal := m ((c : Thread nD τ).loc main_arg0)
abbrev W1 (c : Dev nD) : SW.Idx → EReal := m ((c : Thread nD τ).loc main_arg1)
abbrev W2 (c : Dev nD) : SW.Idx → EReal := m ((c : Thread nD τ).loc main_arg2)
abbrev W3 (c : Dev nD) : SW.Idx → EReal := m ((c : Thread nD τ).loc main_arg3)

/-- The expert of grid point \`n\`. -/
def expertOf (n : ℕ) (hn : n < cfg0.N) : Fin 8 := ⟨n / 16, by have hN : cfg0.N = 128 := N_0; omega⟩
/-- The tile of grid point \`n\`. -/
def tileOf (n : ℕ) : Fin 16 := ⟨n % 16, Nat.mod_lt _ (by decide)⟩

/-- WHAT IS CARRIED: after point \`n\` the running block holds the running totals after tile \`n mod 16\` of expert
    \`n div 16\`, and the cache that expert's rows of \`x\`. -/
theorem carried (c : Dev nD) (n : ℕ) : ∀ hn : n < cfg0.N,
    (∀ (p : Fin 256) (q : Fin 2048), (outsAt0 m c n hn).2.1 (ix2 p q)
        = running (X m c) (W1 m c) (W2 m c) (W3 m c) (expertOf n hn) p q (n % 16))
    ∧ (∀ (p : Fin 256) (k : Fin 2048), (outsAt0 m c n hn).2.2 (ix2 p k) = X m c (ix3 (expertOf n hn) p k)) := by
  induction n using Nat.strong_induction_on with
  | _ n ih =>
    intro hn
    have hN : cfg0.N = 128 := N_0
    obtain ⟨t, rfl⟩ : ∃ t : Fin cfg0.N, t.val = n := ⟨⟨n, hn⟩, rfl⟩
    have hacts : ∀ (p : Fin 256) (k : Fin 2048), (iblk m c 0 t : Vec Ideal S1x256x2048 .f32) (ix3 (0 : Fin 1) p k)
        = X m c (ix3 (expertOf t.val hn) p k) := fun p k => Blocks.acts_apply m c t (expertOf t.val hn) rfl 0 p k
    have hb1 : ∀ (k : Fin 2048) (r : Fin 512), (iblk m c 1 t : Vec Ideal S1x2048x512 .f32) (ix3 (0 : Fin 1) k r)
        = W1 m c (ix3 (expertOf t.val hn) k (unit (tileOf t.val) r)) := fun k r => Blocks.bank1_apply m c t (expertOf t.val hn) rfl (tileOf t.val) rfl 0 k r
    have hb2 : ∀ (k : Fin 2048) (r : Fin 512), (iblk m c 2 t : Vec Ideal S1x2048x512 .f32) (ix3 (0 : Fin 1) k r)
        = W2 m c (ix3 (expertOf t.val hn) k (unit (tileOf t.val) r)) := fun k r => Blocks.bank2_apply m c t (expertOf t.val hn) rfl (tileOf t.val) rfl 0 k r
    have hb3 : ∀ (k : Fin 2048) (r : Fin 512), (iblk m c 3 t : Vec Ideal S1x2048x512 .f32) (ix3 (0 : Fin 1) k r)
        = W3 m c (ix3 (expertOf t.val hn) k (unit (tileOf t.val) r)) := fun k r => Blocks.bank3_apply m c t (expertOf t.val hn) rfl (tileOf t.val) rfl 0 k r
    by_cases h0 : t.val % 16 = 0
    · -- an expert's first tile
      have h1 : ¬t.val % 16 = 15 := by omega
      have htile : tileOf t.val = 0 := Fin.ext (by show t.val % 16 = 0; exact h0)
      rw [htile] at hb1 hb2 hb3
      refine ⟨fun p q => ?_, fun p k => ?_⟩
      · rw [Cases.first_acc m c t h0 h1, h0]
        exact Body.first_value (X m c) (W1 m c) (W2 m c) (W3 m c) (expertOf t.val hn) (iblk m c 0 t) (iblk m c 1 t) (iblk m c 2 t) (iblk m c 3 t)
          hacts hb1 hb2 hb3 p q
      · rw [Cases.first_cache m c t h0 h1]
        exact (Body.cache_apply (iblk m c 0 t) p k).trans (hacts p k)
    · -- a later tile: over what the tile before left
      have hprev : t.val - 1 < cfg0.N := Nat.lt_of_le_of_lt (Nat.sub_le _ _) hn
      obtain ⟨iacc, icache⟩ := ih (t.val - 1) (by omega) hprev
      have hexp : expertOf (t.val - 1) hprev = expertOf t.val hn := Fin.ext (by show (t.val - 1) / 16 = t.val / 16; omega)
      rw [hexp] at iacc icache
      have hj : (tileOf t.val).val = (t.val - 1) % 16 + 1 := by show t.val % 16 = (t.val - 1) % 16 + 1; omega
      refine ⟨fun p q => ?_, fun p k => ?_⟩
      · rw [Cases.later_acc m c t h0, show t.val % 16 = (t.val - 1) % 16 + 1 from hj]
        exact Body.next_value (X m c) (W1 m c) (W2 m c) (W3 m c) (expertOf t.val hn) ((t.val - 1) % 16) (tileOf t.val) hj
          (outsAt0 m c (t.val - 1) hprev).2.2 (outsAt0 m c (t.val - 1) hprev).2.1 (iblk m c 1 t) (iblk m c 2 t) (iblk m c 3 t)
          icache iacc hb1 hb2 hb3 p q
      · rw [Cases.later_cache m c t h0]
        exact icache p k

/-- What the output's staging buffer holds after an expert's last tile: the expert's slab of the layer's output. -/
theorem slab_after_last (c : Dev nD) (t : Fin cfg0.N) (h15 : t.val % 16 = 15) (u : Fin 1) (p : Fin 256) (q : Fin 2048) :
    (outsAt0 m c t.val t.isLt).1 (ix3 u p q)
      = ffn (X m c) (W1 m c) (W2 m c) (W3 m c) (ix3 (expertOf t.val t.isLt) p q) := by
  rw [Cases.last_out m c t h15]
  refine (Body.emit_apply _ u p q).trans ?_
  rw [(carried m c t.val t.isLt).1 p q, h15]
  exact running_last _ _ _ _ _ p q

/-- WHAT A WRITING POINT WRITES BACK is its block of the layer's output of the argument arrays. -/
theorem flushed_eq (c : Dev nD) (t : Fin cfg0.N) (hf : (cfg0.win 4).flush t = true) :
    (dats m 0 c).flushed 4 t
      = ((cfg0.win 4).blk t).view.read (Elt Ideal) (ffn (X m c) (W1 m c) (W2 m c) (W3 m c)) := by
  have h15 : t.val % 16 = 15 := (flush0_4 t).mp hf
  rw [Cert.KernelIdeal.Value.flushed4]
  funext y
  obtain ⟨u, p, q, rfl⟩ : ∃ (u : Fin 1) (p : Fin 256) (q : Fin 2048), y = ix3 u p q := ⟨y 0, y 1, y 2, eq_ix3 y⟩
  rw [Blocks.slab_read t (expertOf t.val t.isLt) rfl]
  show (outsAt0 m c t.val t.isLt).1 (ix3 u p q) = _
  exact slab_after_last m c t h15 u p q

/-- An index of the result array is in point \`t\`'s output block iff each coordinate is in the block's range. -/
theorem mem_slab (t : Fin cfg0.N) (i : S8x256x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v0).slice (win0_4.rect t)).set ↔ _
  rw [View.set_slice_whole, Rect.mem_set_unit]
  exact Iff.rfl

/-- THE RESULT ARRAY after the run: expert \`e\`'s slab is covered by the expert's last tile, point \`16·e + 15\`. -/
theorem final (c : Dev nD) : (dats m 0 c).arrAt 4 cfg0.N = ffn (X m c) (W1 m c) (W2 m c) (W3 m c) :=
  (dats m 0 c).arrAt_eq_of_cover 4 (ffn (X m c) (W1 m c) (W2 m c) (W3 m c)) (flushed_eq m c) fun i => by
    have hN : cfg0.N = 128 := N_0
    have hi0 : (i 0).val < 8 := (i 0).isLt
    have hi1 : (i 1).val < 256 := (i 1).isLt
    have hi2 : (i 2).val < 2048 := (i 2).isLt
    let t : Fin cfg0.N := ⟨16 * (i 0).val + 15, by omega⟩
    have ht : t.val = 16 * (i 0).val + 15 := rfl
    obtain ⟨-, -, -, -, ⟨e0, e1, e2⟩⟩ := Blocks.idx_facts t
    refine ⟨t, (flush0_4 t).mpr (by omega), ?_⟩
    rw [mem_slab]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 256 ≤ (i 1).val ∧ (i 1).val < win0_4.index t (1 : Fin 3) * 256 + 256; omega
    | ⟨2, _⟩ => show win0_4.index t (2 : Fin 3) * 2048 ≤ (i 2).val ∧ (i 2).val < win0_4.index t (2 : Fin 3) * 2048 + 2048; omega

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v0) = ffn (X m c) (W1 m c) (W2 m c) (W3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Swiglu.Carry

end
-- ==== Proof.lean ====
/-
  A grouped expert feed-forward layer, tiled over the hidden axis, against its whole-array formula.

  For eight experts with activations \`x\` of shape \`[8, 256, 2048]\` and weight banks \`w1, w2, w3\` of shape
  \`[8, 2048, 8192]\`, the layer's output at \`(e, t, d)\` is
      \`∑ₕ silu(∑ₖ x[e,t,k]·w1[e,k,h]) · (∑ₖ x[e,t,k]·w3[e,k,h]) · w2[e,d,h]\`,   \`silu(a) = a · 1/(1 + e^(-a))\`.
  The reference computes it with three batched products over the whole hidden axis.  The kernel walks each expert's
  hidden axis in 16 tiles of 512 units, adding each tile's contribution to a running block that starts at zero, and
  writes the block out after the expert's last tile.

  On the extended reals the two agree at every input: a change of float format is the identity there, the kernel's
  logistic function is by definition the reference's quotient \`1/(1 + e^(-a))\`, and the tiled running total is a
  regrouping of one finite sum, which associativity and commutativity of addition allow at every extended real.  No
  finiteness of the inputs is used.

  The pieces: the layer as one function and the regrouping law (Proof/Spec.lean); the reference's last stage is
  that function (Proof/RefValue.lean); the body's stored values entry by entry (Proof/Body.lean) and per control case
  (Proof/Pieces.lean); where each grid point's blocks sit (Proof/Blocks.lean); and the induction over the grid points that
  makes the result array that function (Proof/Carry.lean).
-/
import proofs.«155393_j41051297415846_2_alg».proof.Defs
import proofs.«155393_j41051297415846_2_alg».proof.Proof.Gen.Kernel
import proofs.«155393_j41051297415846_2_alg».proof.Proof.Gen.Kernel.Skeleton
import proofs.«155393_j41051297415846_2_alg».proof.Proof.Gen.Kernel.Launch
import proofs.«155393_j41051297415846_2_alg».proof.Proof.Gen.Kernel.Points
import proofs.«155393_j41051297415846_2_alg».proof.Proof.Gen.Kernel.Frame
import proofs.«155393_j41051297415846_2_alg».proof.Proof.Gen.KernelIdeal
import proofs.«155393_j41051297415846_2_alg».proof.Proof.Gen.KernelIdeal.Skeleton
import proofs.«155393_j41051297415846_2_alg».proof.Proof.Gen.KernelIdeal.Launch
import proofs.«155393_j41051297415846_2_alg».proof.Proof.Gen.KernelIdeal.Points
import proofs.«155393_j41051297415846_2_alg».proof.Proof.Gen.KernelIdeal.Frame
import proofs.«155393_j41051297415846_2_alg».proof.Proof.Gen.ReferenceIdeal
import proofs.«155393_j41051297415846_2_alg».proof.Proof.Gen.Pre_finite_inputs
import proofs.«155393_j41051297415846_2_alg».proof.Proof.Gen.KernelIdeal.Value
import proofs.«155393_j41051297415846_2_alg».proof.Proof.Gen.ReferenceIdeal.Run
import proofs.«155393_j41051297415846_2_alg».proof.Proof.Gen.ReferenceIdeal.Read
import proofs.«155393_j41051297415846_2_alg».proof.Proof.RefValue
import proofs.«155393_j41051297415846_2_alg».proof.Proof.Carry
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the four arguments, the kernel's result array and the reference's both end at the
    layer's output of those arguments. -/
theorem algebraic : Cert.algebraic_KernelIdeal_ReferenceIdeal := by
  intro m ρ m' ρ' _ hagree
  refine ⟨fun c => Cert.Swiglu.ffn (Cert.Swiglu.Carry.X m c) (Cert.Swiglu.Carry.W1 m c) (Cert.Swiglu.Carry.W2 m c) (Cert.Swiglu.Carry.W3 m c),
    Cert.Swiglu.Carry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  exact Cert.Swiglu.Ref.result_is_ffn _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
